-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x2048 : Shape := ⟨3, ![8, 256, 2048]⟩
abbrev S2048x2048 : Shape := ⟨2, ![2048, 2048]⟩
abbrev S2048 : Shape := ⟨1, ![2048]⟩
abbrev S8x2048x2048 : Shape := ⟨3, ![8, 2048, 2048]⟩
abbrev S8x2048 : Shape := ⟨2, ![8, 2048]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S2048 .f32) (main_arg5 : FVec F S8x2048x2048 .f32) (main_arg6 : FVec F S8x2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S8x2048x2048 .f32 := Host.absf main_arg5
  let main_cst_8 : FVec F S_ .f32 := constant S_ .f32 0x7F800000#32
  let main_v25 : FVec F S8x2048x2048 .f32 := broadcastInDim S8x2048x2048 ![] bcast_S_S8x2048x2048 main_cst_8
  let main_v26 : IVec S8x2048x2048 1 := cmpf .olt main_v24 main_v25
  let main_c_9 : IVec S_ 1 := constantI S_ 1 1#1
  let main_v27 : IVec S_ 1 := (fun x v => Host.reduce IntOp.andi x v reducesTo_S8x2048x2048_S_d0_1_2 h_S_) main_v26 main_c_9
  let main_v28 : IVec S_ 1 := andi main_v23 main_v27
  let main_v29 : FVec F S8x2048 .f32 := Host.absf main_arg6
  let main_cst_10 : FVec F S_ .f32 := constant S_ .f32 0x7F800000#32
  let main_v30 : FVec F S8x2048 .f32 := broadcastInDim S8x2048 ![] bcast_S_S8x2048 main_cst_10
  let main_v31 : IVec S8x2048 1 := cmpf .olt main_v29 main_v30
  let main_c_11 : IVec S_ 1 := constantI S_ 1 1#1
  let main_v32 : IVec S_ 1 := (fun x v => Host.reduce IntOp.andi x v reducesTo_S8x2048_S_d0_1 h_S_) main_v31 main_c_11
  let main_v33 : IVec S_ 1 := andi main_v28 main_v32
  main_v33

def fn {F : FTy → Type} [FloatOps F] (main_arg0 : FVec F S8x256x2048 .f32) (main_arg1 : FVec F S2048x2048 .f32) (main_arg2 : FVec F S2048x2048 .f32) (main_arg3 : FVec F S2048 .f32) (main_arg4 : FVec F S2048 .f32) (main_arg5 : FVec F S8x2048x2048 .f32) (main_arg6 : FVec F S8x2048 .f32) : IVec S_ 1 :=
  let main_v0 : FVec F S8x256x2048 .f32 := Host.absf main_arg0
  let main_cst : FVec F S_ .f32 := constant S_ .f32 0x7F800000#32
  let main_v1 : FVec F S8x256x2048 .f32 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S8x256x2048 : Shape := ⟨3, ![8, 256, 2048]⟩
abbrev S2048x2048 : Shape := ⟨2, ![2048, 2048]⟩
abbrev S2048 : Shape := ⟨1, ![2048]⟩
abbrev S8x2048x2048 : Shape := ⟨3, ![8, 2048, 2048]⟩
abbrev S8x2048 : Shape := ⟨2, ![8, 2048]⟩
abbrev S1x256x2048 : Shape := ⟨3, ![1, 256, 2048]⟩
abbrev S256x2048 : Shape := ⟨2, ![256, 2048]⟩
abbrev S256 : Shape := ⟨1, ![256]⟩
abbrev S8x256 : Shape := ⟨2, ![8, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8x2048x2048, .f32⟩
  | .hbm, ⟨6, _⟩ => ⟨S8x2048, .f32⟩
  | .hbm, ⟨7, _⟩ => ⟨S8x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S1x256x2048, .f32⟩
  | .local _ .vmem, ⟨11, _⟩ => ⟨S1x256x2048, .f32⟩
  | .local _ .vmem, ⟨12, _⟩ => ⟨S8x256, .f32⟩
  | .local _ .vmem, ⟨13, _⟩ => ⟨S8x256, .f32⟩
  | .local _ .vmem, ⟨14, _⟩ => ⟨S1x256x256, .f32⟩
  | .local _ .vmem, ⟨15, _⟩ => ⟨S1x256x256, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg1 : BitVec 32 := BitVec.ofNat 32 (i 1).val
  let v11 : Index := Scalar.indexCast arg1
  let c0_9 : Index := 0#32
  ![v11.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S256x2048_S256x2048_0_0 : ∀ a, (![0, 0] : Fin 2 → Nat) a + S256x2048.size a ≤ S256x2048.size a
  h_S256x2048 : 0 < S256x2048.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  bitsLt_bf16_f32 : FTy.bits .bf16 < FTy.bits .f32
  h_S1x256 : 0 < S1x256.numel
  shapeCasts_S1x256_S256 : S1x256.ShapeCasts S256
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S256x2048_S256x2048_S256x256_1_1_0_0_n_n_wf : DotDims.WF S256x2048 S256x2048 S256x256 [1] [1] [0] [0] [] []
  hrank0 : 0 < grid0.rank
  k0_off1_inb : ∀ i : grid0.Coords, ∀ a, (k0_off1 i) a + S1x256.size a ≤ S8x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x2048.size a
  hwx0_0 : ∀ i : grid0.Coords, EltTy.bits .f32 = 32 ∨ (Rect.block (s := S8x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S2048.size a
  hwx0_3 : ∀ i : grid0.Coords, EltTy.bits .f32 = 32 ∨ (Rect.block (s := S2048) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S2048.size a
  hwx0_4 : ∀ i : grid0.Coords, EltTy.bits .f32 = 32 ∨ (Rect.block (s := S2048) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S8x2048x2048.size a
  hwx0_5 : ∀ i : grid0.Coords, EltTy.bits .f32 = 32 ∨ (Rect.block (s := S8x2048x2048) S1x256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x256.size a ≤ S8x2048.size a
  hwx0_6 : ∀ i : grid0.Coords, EltTy.bits .f32 = 32 ∨ (Rect.block (s := S8x2048) S8x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x256.size a ≤ S8x256x2048.size a
  hwx0_7 : ∀ i : grid0.Coords, EltTy.bits .f32 = 32 ∨ (Rect.block (s := S8x256x2048) S1x256x256.size (cc0_transform_7 i) (hinb0_7 i)).WholeWords (EltTy.packing .f32)

variable [Facts₀]

def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S8x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x256x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x256x2048 : Shape := ⟨3, ![8, 256, 2048]⟩
abbrev S2048x2048 : Shape := ⟨2, ![2048, 2048]⟩
abbrev S2048 : Shape := ⟨1, ![2048]⟩
abbrev S8x2048x2048 : Shape := ⟨3, ![8, 2048, 2048]⟩
abbrev S8x2048 : Shape := ⟨2, ![8, 2048]⟩
abbrev S1x2048x2048 : Shape := ⟨3, ![1, 2048, 2048]⟩
abbrev S1x2048 : Shape := ⟨2, ![1, 2048]⟩
abbrev S8x1x2048 : Shape := ⟨3, ![8, 1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8x2048x2048, .f32⟩
  | .hbm, ⟨6, _⟩ => ⟨S8x2048, .f32⟩
  | .hbm, ⟨7, _⟩ => ⟨S1x2048x2048, .f32⟩
  | .hbm, ⟨8, _⟩ => ⟨S1x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S1x2048, .f32⟩
  | .hbm, ⟨14, _⟩ => ⟨S1x2048, .f32⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S8x256x2048, .f32⟩
  | .hbm, ⟨20, _⟩ => ⟨S8x1x2048, .f32⟩
  | .hbm, ⟨21, _⟩ => ⟨S8x256x2048, .f32⟩
  | .hbm, ⟨22, _⟩ => ⟨S8x256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  bcast_S2048_S1x2048_1 : S2048.BroadcastsInDim S1x2048 (![1] : Fin 1 → Fin S1x2048.rank)
  bcast_S1x2048_S8x2048_0_1 : S1x2048.BroadcastsInDim S8x2048 (![0, 1] : Fin 2 → Fin S8x2048.rank)
  bcast_S8x2048_S8x1x2048_0_2 : S8x2048.BroadcastsInDim S8x1x2048 (![0, 2] : Fin 2 → Fin S8x1x2048.rank)
  bcast_S8x1x2048_S8x256x2048_0_1_2 : S8x1x2048.BroadcastsInDim S8x256x2048 (![0, 1, 2] : Fin 3 → Fin S8x256x2048.rank)
  dot_S8x256x2048_S8x2048x2048_S8x256x2048_2_2_1_1_0_0_wf : DotDims.WF S8x256x2048 S8x2048x2048 S8x256x2048 [2] [2] [1] [1] [0] [0]

variable [Facts₀]

def dot_S8x256x2048_S8x2048x2048_S8x256x2048_2_2_1_1_0_0 : DotDims S8x256x2048 S8x2048x2048 S8x256x2048 where
  lhsContracting := [2]
  rhsContracting := [2]
  lhsNonContracting := [1]
  rhsNonContracting := [1]
  lhsBatch := [0]
  rhsBatch := [0]
  wf := dot_S8x256x2048_S8x2048x2048_S8x256x2048_2_2_1_1_0_0_wf

class Facts : Prop extends Facts₀ where

variable [Facts]
-- ==== Proof.Spec.lean ====
/-
  The specification both programs are compared with: a linear layer whose weights and bias are drawn per sample.

  For sample `s` the weight matrix is `W_s(o, k) = μ(o, k) + σ(o, k) · ε(s, o, k)` and the bias vector is
  `β_s(o) = bμ(o) + bσ(o) · εb(s, o)`; the output at sample `s`, batch row `b`, output feature `o` is

      out(s, b, o) = (∑ k, x(s, b, k) · W_s(o, k)) + β_s(o),

  an extended real: every operation is the exact one, in the order written (the product `σ · ε` before the sum
  with `μ`, the dot product before the bias). No law of arithmetic is used to bring either program to this form,
  so nothing here asks the inputs to be finite.
-/
import Idealize.ShloMosaic.PureOps.Ideal
import Idealize.ShloMosaic.Lib.ValueIdx

noncomputable section

namespace Cert.Spec

open Idealize.ShloMosaic Idealize.ShloMosaic.ValueIdx

/-- Entry `(o, k)` of sample `s`'s weight matrix: `μ(o, k) + σ(o, k) · ε(s, o, k)`. -/
def weight (wmu wsig : (⟨2, ![2048, 2048]⟩ : Shape).Idx → EReal) (epsw : (⟨3, ![8, 2048, 2048]⟩ : Shape).Idx → EReal)
    (s : Fin 8) (o k : Fin 2048) : EReal :=
  wmu (ix2 o k) + wsig (ix2 o k) * epsw (ix3 s o k)

/-- Entry `o` of sample `s`'s bias vector: `bμ(o) + bσ(o) · εb(s, o)`. -/
def bias (bmu bsig : (⟨1, ![2048]⟩ : Shape).Idx → EReal) (epsb : (⟨2, ![8, 2048]⟩ : Shape).Idx → EReal)
    (s : Fin 8) (o : Fin 2048) : EReal :=
  bmu (ix1 o) + bsig (ix1 o) * epsb (ix2 s o)

/-- The layer's output at `(s, b, o)`: row `b` of `x_s` against row `o` of `W_s`, plus `β_s(o)`. -/
def linearAt (x : (⟨3, ![8, 256, 2048]⟩ : Shape).Idx → EReal) (wmu wsig : (⟨2, ![2048, 2048]⟩ : Shape).Idx → EReal)
    (bmu bsig : (⟨1, ![2048]⟩ : Shape).Idx → EReal) (epsw : (⟨3, ![8, 2048, 2048]⟩ : Shape).Idx → EReal)
    (epsb : (⟨2, ![8, 2048]⟩ : Shape).Idx → EReal) (s : Fin 8) (b : Fin 256) (o : Fin 2048) : EReal :=
  (∑ k : Fin 2048, x (ix3 s b k) * weight wmu wsig epsw s o k) + bias bmu bsig epsb s o

/-- The layer's output as one array `[8, 256, 2048]` of the seven argument arrays. -/
def linear (x : (⟨3, ![8, 256, 2048]⟩ : Shape).Idx → EReal) (wmu wsig : (⟨2, ![2048, 2048]⟩ : Shape).Idx → EReal)
    (bmu bsig : (⟨1, ![2048]⟩ : Shape).Idx → EReal) (epsw : (⟨3, ![8, 2048, 2048]⟩ : Shape).Idx → EReal)
    (epsb : (⟨2, ![8, 2048]⟩ : Shape).Idx → EReal) : (⟨3, ![8, 256, 2048]⟩ : Shape).Idx → EReal :=
  fun j => linearAt x wmu wsig bmu bsig epsw epsb (j 0) (j 1) (j 2)

end Cert.Spec

end
-- ==== Proof.Reference.lean ====
/-
  The reference computes the specification.

  The reference broadcasts `μ` and `σ` over the sample axis, forms `W = μ + σ · ε` as one `[8, 2048, 2048]` array,
  broadcasts `bμ` and `bσ` likewise and forms `β = bμ + bσ · εb` as `[8, 2048]`, contracts the last axis of `x`
  with the last axis of `W` sample by sample, and adds `β` broadcast over the batch rows. Read at an output index
  `(s, b, o)`, every broadcast reads its operand at the coordinates it keeps, the contraction is the sum over `k` of
  `x(s, b, k) · W(s, o, k)`, and the whole is `Spec.linearAt … s b o` term for term.
-/
import proofs.«155724_j2594160247049_2_alg».proof.Proof.Gen.ReferenceIdeal.Read
import proofs.«155724_j2594160247049_2_alg».proof.Proof.Spec

noncomputable section

namespace Cert.RefSpec

open Cert.ReferenceIdeal Cert.ReferenceIdeal.Read Idealize.ShloMosaic Idealize.ShloMosaic.ValueIdx

/-- The reference's last stage is the specification, as whole arrays. -/
theorem reference_eq_linear (x0 : S8x256x2048.Idx → EReal) (x1 x2 : S2048x2048.Idx → EReal) (x3 x4 : S2048.Idx → EReal)
    (x5 : S8x2048x2048.Idx → EReal) (x6 : S8x2048.Idx → EReal) :
    val_main_v15 (F := Ideal) x0 x1 x2 x3 x4 x5 x6 = Cert.Spec.linear x0 x1 x2 x3 x4 x5 x6 := by
  funext j
  obtain ⟨s, b, o, rfl⟩ : ∃ (s : Fin 8) (b : Fin 256) (o : Fin 2048), j = ix3 s b o := ⟨j 0, j 1, j 2, eq_ix3 j⟩
  -- the coordinates each stage reads its operand at, for the output index (s, b, o) and the contraction index k
  have exk : ∀ k : Fin 2048, lidx_main_v12 (ix3 s b o) k = ix3 s b k := fun k => funext fun a => by
    match a with | ⟨0, _⟩ => rfl | ⟨1, _⟩ => rfl | ⟨2, _⟩ => rfl
  have ewk : ∀ k : Fin 2048, ridx_main_v12 (ix3 s b o) k = ix3 s o k := fun k => funext fun a => by
    match a with | ⟨0, _⟩ => rfl | ⟨1, _⟩ => rfl | ⟨2, _⟩ => rfl
  have emu : ∀ k : Fin 2048, idx_main_v0 (idx_main_v4 (ix3 s o k)) = ix2 o k := fun k => funext fun a => by
    match a with | ⟨0, _⟩ => rfl | ⟨1, _⟩ => rfl
  have esig : ∀ k : Fin 2048, idx_main_v1 (idx_main_v2 (ix3 s o k)) = ix2 o k := fun k => funext fun a => by
    match a with | ⟨0, _⟩ => rfl | ⟨1, _⟩ => rfl
  have eb : idx_main_v13 (idx_main_v14 (ix3 s b o)) = ix2 s o := funext fun a => by
    match a with | ⟨0, _⟩ => rfl | ⟨1, _⟩ => rfl
  have ebmu : idx_main_v6 (idx_main_v10 (ix2 s o)) = ix1 o := funext fun a => by
    match a with | ⟨0, _⟩ => rfl
  have ebsig : idx_main_v7 (idx_main_v8 (ix2 s o)) = ix1 o := funext fun a => by
    match a with | ⟨0, _⟩ => rfl
  rw [val_main_v15_apply, val_main_v12_apply, val_main_v14_apply, val_main_v13_apply, eb, val_main_v11_apply,
    val_main_v10_apply, val_main_v6_apply, ebmu, val_main_v9_apply, val_main_v8_apply, val_main_v7_apply, ebsig]
  simp only [exk, ewk, val_main_v5_apply, val_main_v4_apply, val_main_v0_apply, emu, val_main_v3_apply,
    val_main_v2_apply, val_main_v1_apply, esig, Ideal.addf_def, Ideal.mulf_def]
  rfl

end Cert.RefSpec

end
-- ==== Proof.RowDot.lean ====
/-
  The kernel's matrix product read at an entry.

  The body multiplies a `[256, 2048]` block `A` by a `[256, 2048]` block `B`, contracting the LAST axis of both, into
  an accumulator that starts at zero: entry `(p, q)` of the `[256, 256]` result is the dot product of row `p` of `A`
  with row `q` of `B`,

      (A · Bᵀ)(p, q) = ∑ k, A(p, k) · B(q, k),

  as extended reals. The library gives the product at an index as a sum over the record's contraction index set of
  the operands at the record's index maps; the contraction index set has one axis of extent 2048, and the two index
  maps keep the output's row on the left operand and the output's column on the right one.
-/
import proofs.«155724_j2594160247049_2_alg».proof.Proof.Gen.KernelIdeal
import Idealize.ShloMosaic.PureOps.Ideal.Laws
import Idealize.ShloMosaic.Lib.ValueIdx

noncomputable section

namespace Cert.KernelIdeal.RowDot

open Cert.KernelIdeal Idealize.ShloMosaic Idealize.ShloMosaic.ValueIdx

/-- The left operand keeps the output's row on its axis 0, -/
theorem lhs_row (i : S256x256.Idx) (r : dot_S256x2048_S256x2048_S256x256_1_1_0_0_n_n.contr.Idx) :
    (dot_S256x2048_S256x2048_S256x256_1_1_0_0_n_n.lhsIdx i r 0).val = (i 0).val := by
  unfold DotDims.lhsIdx
  rw [dif_neg (show ¬(0 : Fin S256x2048.rank) ∈ dot_S256x2048_S256x2048_S256x256_1_1_0_0_n_n.lhsBatch by decide),
    dif_pos (show (0 : Fin S256x2048.rank) ∈ dot_S256x2048_S256x2048_S256x256_1_1_0_0_n_n.lhsNonContracting by decide)]
  rfl

/-- and runs over the contraction index on its axis 1; -/
theorem lhs_contr (i : S256x256.Idx) (r : dot_S256x2048_S256x2048_S256x256_1_1_0_0_n_n.contr.Idx) :
    (dot_S256x2048_S256x2048_S256x256_1_1_0_0_n_n.lhsIdx i r 1).val = (r ⟨0, by decide⟩).val :=
  dot_S256x2048_S256x2048_S256x256_1_1_0_0_n_n.lhsIdx_val_of_single rfl i r

/-- the right operand keeps the output's COLUMN on its axis 0, -/
theorem rhs_row (i : S256x256.Idx) (r : dot_S256x2048_S256x2048_S256x256_1_1_0_0_n_n.contr.Idx) :
    (dot_S256x2048_S256x2048_S256x256_1_1_0_0_n_n.rhsIdx i r 0).val = (i 1).val := by
  unfold DotDims.rhsIdx
  rw [dif_neg (show ¬(0 : Fin S256x2048.rank) ∈ dot_S256x2048_S256x2048_S256x256_1_1_0_0_n_n.rhsBatch by decide),
    dif_pos (show (0 : Fin S256x2048.rank) ∈ dot_S256x2048_S256x2048_S256x256_1_1_0_0_n_n.rhsNonContracting by decide)]
  rfl

/-- and runs over the contraction index on its axis 1. -/
theorem rhs_contr (i : S256x256.Idx) (r : dot_S256x2048_S256x2048_S256x256_1_1_0_0_n_n.contr.Idx) :
    (dot_S256x2048_S256x2048_S256x256_1_1_0_0_n_n.rhsIdx i r 1).val = (r ⟨0, by decide⟩).val :=
  dot_S256x2048_S256x2048_S256x256_1_1_0_0_n_n.rhsIdx_val_of_single rfl i r

/-- Entry `(p, q)` of the product into a zero accumulator is the dot product of row `p` of the left operand with
    row `q` of the right one. -/
theorem matmul_zero_apply {φ₁ φ₂ : FTy} (A : FVec Ideal S256x2048 φ₁) (B : FVec Ideal S256x2048 φ₂) (p q : Fin 256) :
    matmul (F := Ideal) dot_S256x2048_S256x2048_S256x256_1_1_0_0_n_n none A B (constant S256x256 .f32 0x00000000#32) (ix2 p q)
      = ∑ k : Fin 2048, A (ix2 p k) * B (ix2 q k) := by
  simp only [matmul]
  rw [Ideal.matmul_constant_zero_apply,
    ← Equiv.sum_comp (contrEquiv1 dot_S256x2048_S256x2048_S256x256_1_1_0_0_n_n 2048 rfl rfl).symm]
  refine Finset.sum_congr rfl fun k _ => ?_
  have hk := contrEquiv1_symm_val dot_S256x2048_S256x2048_S256x256_1_1_0_0_n_n 2048 rfl rfl k
  have el : dot_S256x2048_S256x2048_S256x256_1_1_0_0_n_n.lhsIdx (ix2 p q)
      ((contrEquiv1 dot_S256x2048_S256x2048_S256x256_1_1_0_0_n_n 2048 rfl rfl).symm k) = ix2 p k :=
    funext fun a => Fin.ext (by
      match a with
      | ⟨0, _⟩ => exact lhs_row _ _
      | ⟨1, _⟩ => exact (lhs_contr _ _).trans hk)
  have er : dot_S256x2048_S256x2048_S256x256_1_1_0_0_n_n.rhsIdx (ix2 p q)
      ((contrEquiv1 dot_S256x2048_S256x2048_S256x256_1_1_0_0_n_n 2048 rfl rfl).symm k) = ix2 q k :=
    funext fun a => Fin.ext (by
      match a with
      | ⟨0, _⟩ => exact rhs_row _ _
      | ⟨1, _⟩ => exact (rhs_contr _ _).trans hk)
  rw [el, er]

end Cert.KernelIdeal.RowDot

end
-- ==== Proof.Body.lean ====
/-
  What the kernel body leaves in the output's staging buffer, and that value read at an entry.

  At a grid point the body loads the whole `μ`, `σ` and `ε` blocks (`[256, 2048]`, `[256, 2048]`, `[1, 256, 2048]`),
  the whole `x` block (`[1, 256, 2048]`), ONE row of the `εb` block (`[8, 256]`: the row the sample coordinate of
  the point selects), and the whole `bμ`, `bσ` blocks (`[256]`), and stores one `[1, 256, 256]` value over the whole
  output buffer. So the buffer ends holding that one value of the loaded blocks (`body_leaves`, at any float
  instance), and over the extended reals its entry `(0, p, q)` is

      (∑ k, x(0, p, k) · (μ(q, k) + σ(q, k) · ε(0, q, k))) + (bμ(q) + bσ(q) · row(0, q))

  (`payload_apply`): the shape casts only add or drop the unit axis, the casts to bf16 are the identity on extended
  reals, the matrix product contracts the last axis of both operands into a zero accumulator, and the bias row is
  broadcast over the 256 batch rows.
-/
import proofs.«155724_j2594160247049_2_alg».proof.Proof.Gen.KernelIdeal.Frame
import proofs.«155724_j2594160247049_2_alg».proof.Proof.RowDot
import Idealize.ShloMosaic.Lib.Pipeline.Value
import Idealize.ShloMosaic.Lib.ValueLayout
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.ValueIdx

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

section AnyInstance

variable {F : FTy → Type} [FloatOps F]

/-- The body's one store covers the output buffer, so the buffer ends at the stored value: the payload of the
    blocks the body loaded — each read whole, except the `εb` block, of which the body reads the one row at the
    offsets the point's sample coordinate gives. -/
theorem body_leaves (c : Dev nD) (i : grid0.Coords) (arg2 : Memref sig .tc .vmem S1x256x2048 .f32) (harg2 : arg2.IsWhole) (arg3 : Memref sig .tc .vmem S256x2048 .f32) (harg3 : arg3.IsWhole) (arg4 : Memref sig .tc .vmem S256x2048 .f32) (harg4 : arg4.IsWhole) (arg5 : Memref sig .tc .vmem S256 .f32) (harg5 : arg5.IsWhole) (arg6 : Memref sig .tc .vmem S256 .f32) (harg6 : arg6.IsWhole) (arg7 : Memref sig .tc .vmem S1x256x2048 .f32) (harg7 : arg7.IsWhole) (arg8 : Memref sig .tc .vmem S8x256 .f32) (harg8 : arg8.IsWhole) (arg9 : Memref sig .tc .vmem S1x256x256 .f32) (harg9 : arg9.IsWhole)
    (x0 : Vec F S1x256x2048 .f32) (x1 : Vec F S256x2048 .f32) (x2 : Vec F S256x2048 .f32) (x3 : Vec F S256 .f32) (x4 : Vec F S256 .f32) (x5 : Vec F S1x256x2048 .f32) (x6 : Vec F S8x256 .f32) :
    out0_A_7 c i arg2 harg2 arg3 harg3 arg4 harg4 arg5 harg5 arg6 harg6 arg7 harg7 arg8 harg8 arg9 harg9 x0 x1 x2 x3 x4 x5 x6
      = k0_pay1 x1 x2 x5 x0 (View.ld x6 (Rect.unit (s := S8x256) (k0_off1 i) S1x256.size (k0_off1_inb i))) x3 x4 := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6)]
  unfold kernelRun0_A
  dsimp only
  rw [View.canon_unit_zero hz3]
  simp only [View.readAt_eq_ld, harg2.read_unread, harg3.read_unread, harg4.read_unread, harg5.read_unread,
    harg6.read_unread, harg7.read_unread, harg8.read_unread, View.ld_unit_zero (S := S256x2048) hz2,
    View.ld_unit_zero (S := S1x256x2048) hz3, View.ld_unit_zero (S := S256) hz1]

end AnyInstance

/-- The stored value at entry `(u, p, q)` of the `[1, 256, 256]` block, over the extended reals: row `p` of the `x`
    block against row `q` of the weight block `μ + σ · ε`, plus entry `q` of the bias row `bμ + bσ · row`. -/
theorem payload_apply (wmu wsig : Vec Ideal S256x2048 .f32) (epsw xb : Vec Ideal S1x256x2048 .f32)
    (row : Vec Ideal S1x256 .f32) (bmu bsig : Vec Ideal S256 .f32) (u : Fin 1) (p q : Fin 256) :
    k0_pay1 (F := Ideal) wmu wsig epsw xb row bmu bsig (ix3 u p q)
      = (∑ k : Fin 2048, xb (ix3 (0 : Fin 1) p k) * (wmu (ix2 q k) + wsig (ix2 q k) * epsw (ix3 (0 : Fin 1) q k)))
        + (bmu (ix1 q) + bsig (ix1 q) * row (ix2 (0 : Fin 1) q)) := by
  unfold k0_pay1
  -- the unit axis added to the [256, 256] sum of product and bias
  refine (shapeCast_ab_1ab_apply _ _ u p q).trans ?_
  refine congrArg₂ (· + ·) ?_ ?_
  · -- the product: row p of the x block against row q of the weight block
    refine (RowDot.matmul_zero_apply _ _ p q).trans (Finset.sum_congr rfl fun k _ => ?_)
    refine congrArg₂ (· * ·) (shapeCast_1ab_ab_apply xb _ p k) ?_
    exact congrArg (fun z => wmu (ix2 q k) + wsig (ix2 q k) * z) (shapeCast_1ab_ab_apply epsw _ q k)
  · -- the bias row, broadcast over the batch rows
    refine (broadcastTo_1b_ab_apply _ _ p q).trans ?_
    refine (shapeCast_a_1a_apply _ _ (0 : Fin 1) q).trans ?_
    exact congrArg (fun z => bmu (ix1 q) + bsig (ix1 q) * z) (shapeCast_1a_a_apply row _ q)

end Cert.KernelIdeal.Body

end
-- ==== Proof.BlockValue.lean ====
/-
  A block of the output is the layer applied to the rows the blocks hold.

  Suppose the `x` block holds rows of sample `s` of `x`, the `μ`, `σ` blocks hold rows of `μ`, `σ`, the `ε` block holds
  rows of sample `s` of `ε`, the `bμ`, `bσ` blocks hold entries of `bμ`, `bσ` and the row read from the `εb` block holds
  entries of row `s` of `εb` — precisely: row `p` of the `x` block is row `b` of `x_s`, and row `q` of each weight
  block (entry `q` of each bias block) is row `o` (entry `o`) of its array. Then entry `(0, p, q)` of the value the
  body stores is the layer's output at `(s, b, o)`. Nothing is assumed about where the blocks come from: that is
  the next module's business.
-/
import proofs.«155724_j2594160247049_2_alg».proof.Proof.Body
import proofs.«155724_j2594160247049_2_alg».proof.Proof.Spec

noncomputable section

namespace Cert.KernelIdeal.BlockValue

open Cert.KernelIdeal Cert.KernelIdeal.Gen Idealize.ShloMosaic Idealize.ShloMosaic.ValueIdx

/-- The stored value at `(u, p, q)` is `Spec.linearAt … s b o` when the blocks hold the rows that entry reads. -/
theorem stored_eq_linearAt
    (X0 : S8x256x2048.Idx → EReal) (X1 X2 : S2048x2048.Idx → EReal) (X3 X4 : S2048.Idx → EReal)
    (X5 : S8x2048x2048.Idx → EReal) (X6 : S8x2048.Idx → EReal)
    (xb : Vec Ideal S1x256x2048 .f32) (wmu wsig : Vec Ideal S256x2048 .f32) (bmu bsig : Vec Ideal S256 .f32)
    (epsw : Vec Ideal S1x256x2048 .f32) (row : Vec Ideal S1x256 .f32)
    (s : Fin 8) (b : Fin 256) (o : Fin 2048) (u : Fin 1) (p q : Fin 256)
    (h0 : ∀ k : Fin 2048, xb (ix3 (0 : Fin 1) p k) = X0 (ix3 s b k))
    (h1 : ∀ k : Fin 2048, wmu (ix2 q k) = X1 (ix2 o k))
    (h2 : ∀ k : Fin 2048, wsig (ix2 q k) = X2 (ix2 o k))
    (h3 : bmu (ix1 q) = X3 (ix1 o))
    (h4 : bsig (ix1 q) = X4 (ix1 o))
    (h5 : ∀ k : Fin 2048, epsw (ix3 (0 : Fin 1) q k) = X5 (ix3 s o k))
    (h6 : row (ix2 (0 : Fin 1) q) = X6 (ix2 s o)) :
    k0_pay1 (F := Ideal) wmu wsig epsw xb row bmu bsig (ix3 u p q)
      = Cert.Spec.linearAt X0 X1 X2 X3 X4 X5 X6 s b o := by
  rw [Body.payload_apply, h3, h4, h6]
  simp only [h0, h1, h2, h5]
  rfl

end Cert.KernelIdeal.BlockValue

end
-- ==== Proof.Blocks.lean ====
/-
  From blocks to the array: the kernel's result is the layer's output.

  The grid has 64 points, one per (column tile, sample) pair. At a point the output window's block is the
  `[1, 256, 256]` piece of the result at (sample, all batch rows, the tile's 256 columns); the input windows' blocks
  are the pieces of their arrays that this piece of the layer reads: the sample's slab of `x`, the tile's 256 rows
  of `μ` and `σ`, the tile's 256 entries of `bμ` and `bσ`, the sample's slab of `ε` restricted to the tile's rows, and
  all eight samples' entries of `εb` at the tile's columns, of which the body reads the sample's row. These relations
  between the printed index maps are decided over the 64 points. With them, what a point writes back is its block
  of the layer's output as ONE function of the whole argument arrays; the 64 blocks tile the result array; so the
  array ends holding that function.
-/
import proofs.«155724_j2594160247049_2_alg».proof.Proof.Gen.KernelIdeal.Value
import proofs.«155724_j2594160247049_2_alg».proof.Proof.BlockValue

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The printed index maps, decided over the 64 grid points. The output's block index is (sample, 0, column tile);
    the `x` block is the sample's; the `μ`, `σ`, `bμ`, `bσ` blocks are the column tile's rows; the `ε` block is the
    sample's rows of the column tile; the `εb` block holds all eight samples' entries of the column tile, and the row
    the body reads from it is the sample's. -/
theorem idx_facts : ∀ t : Fin cfg0.N,
    win0_7.index t (1 : Fin 3) = 0
    ∧ win0_0.index t (0 : Fin 3) = win0_7.index t (0 : Fin 3) ∧ win0_0.index t (1 : Fin 3) = 0 ∧ win0_0.index t (2 : Fin 3) = 0
    ∧ win0_1.index t (0 : Fin 2) = win0_7.index t (2 : Fin 3) ∧ win0_1.index t (1 : Fin 2) = 0
    ∧ win0_2.index t (0 : Fin 2) = win0_7.index t (2 : Fin 3) ∧ win0_2.index t (1 : Fin 2) = 0
    ∧ win0_3.index t (0 : Fin 1) = win0_7.index t (2 : Fin 3)
    ∧ win0_4.index t (0 : Fin 1) = win0_7.index t (2 : Fin 3)
    ∧ win0_5.index t (0 : Fin 3) = win0_7.index t (0 : Fin 3) ∧ win0_5.index t (1 : Fin 3) = win0_7.index t (2 : Fin 3)
      ∧ win0_5.index t (2 : Fin 3) = 0
    ∧ win0_6.index t (0 : Fin 2) = 0 ∧ win0_6.index t (1 : Fin 2) = win0_7.index t (2 : Fin 3)
    ∧ k0_off1 (grid0.coords t) (0 : Fin 2) = win0_7.index t (0 : Fin 3) ∧ k0_off1 (grid0.coords t) (1 : Fin 2) = 0 :=
  (by decide +kernel : ∀ t : Fin grid0.N, _)

/-- Every (sample, column tile) pair is some grid point's output block. -/
theorem idx_onto : ∀ (s : Fin 8) (j : Fin 8), ∃ t : Fin cfg0.N, win0_7.index t = ![s.val, 0, j.val] :=
  (by decide +kernel : ∀ (s : Fin 8) (j : Fin 8), ∃ t : Fin grid0.N, win0_7.index t = ![s.val, 0, j.val])

/-- What grid point `t` writes back is block `t` of the layer's output computed from the whole argument arrays:
    entry `(u, p, q)` of the block sits at `(sample, p, 256 · tile + q)` of the array, and each block the body loaded
    holds exactly the rows of its array that this entry of the layer reads. -/
theorem flushed_eq (c : Dev nD) (t : Fin cfg0.N) :
    (dats m 0 c).flushed 7 t = ((cfg0.win 7).blk t).view.read (Elt Ideal) (Cert.Spec.linear (V m c main_arg0) (V m c main_arg1) (V m c main_arg2) (V m c main_arg3) (V m c main_arg4) (V m c main_arg5) (V m c main_arg6)) := by
  rw [Cert.KernelIdeal.Value.flushed7_A, Body.body_leaves]
  obtain ⟨f71, f00, f01, f02, f10, f11, f20, f21, f30, f40, f50, f51, f52, f60, f61, g0, g1⟩ := idx_facts t
  funext y
  obtain ⟨u, p, q, rfl⟩ : ∃ (u : Fin 1) (p q : Fin 256), y = ix3 u p q := ⟨y 0, y 1, y 2, eq_ix3 y⟩
  have hu : u.val = 0 := by omega
  have hp : p.val < 256 := p.isLt
  have hq : q.val < 256 := q.isLt
  show k0_pay1 (iblk m c 1 t) (iblk m c 2 t) (iblk m c 5 t) (iblk m c 0 t)
      (View.ld (iblk m c 6 t) (Rect.unit (s := S8x256) (k0_off1 (grid0.coords t)) S1x256.size (k0_off1_inb (grid0.coords t))))
      (iblk m c 3 t) (iblk m c 4 t) (ix3 u p q)
    = Cert.Spec.linearAt (V m c main_arg0) (V m c main_arg1) (V m c main_arg2) (V m c main_arg3) (V m c main_arg4) (V m c main_arg5) (V m c main_arg6)
      (((cfg0.win 7).blk t).view.emb (ix3 u p q) 0) (((cfg0.win 7).blk t).view.emb (ix3 u p q) 1)
      (((cfg0.win 7).blk t).view.emb (ix3 u p q) 2)
  refine BlockValue.stored_eq_linearAt (V m c main_arg0) (V m c main_arg1) (V m c main_arg2) (V m c main_arg3) (V m c main_arg4) (V m c main_arg5) (V m c main_arg6)
    (iblk m c 0 t) (iblk m c 1 t) (iblk m c 2 t) (iblk m c 3 t) (iblk m c 4 t) (iblk m c 5 t)
    (View.ld (iblk m c 6 t) (Rect.unit (s := S8x256) (k0_off1 (grid0.coords t)) S1x256.size (k0_off1_inb (grid0.coords t))))
    (((cfg0.win 7).blk t).view.emb (ix3 u p q) 0) (((cfg0.win 7).blk t).view.emb (ix3 u p q) 1)
    (((cfg0.win 7).blk t).view.emb (ix3 u p q) 2) u p q ?_ ?_ ?_ ?_ ?_ ?_ ?_
  · -- the x block: row p of the sample's [256, 2048] slab
    intro k
    show V m c main_arg0 (((cfg0.win 0).blk t).view.emb (ix3 (0 : Fin 1) p k)) = _
    refine congrArg (V m c main_arg0) (funext fun a => Fin.ext ?_)
    match a with
    | ⟨0, _⟩ => show win0_0.index t (0 : Fin 3) * 1 + 1 * ((0 : Fin 1) : ℕ) = win0_7.index t (0 : Fin 3) * 1 + 1 * u.val; omega
    | ⟨1, _⟩ => show win0_0.index t (1 : Fin 3) * 256 + 1 * p.val = win0_7.index t (1 : Fin 3) * 256 + 1 * p.val; omega
    | ⟨2, _⟩ => show win0_0.index t (2 : Fin 3) * 2048 + 1 * k.val = k.val; omega
  · -- the μ block: row q of the column tile's 256 rows
    intro k
    show V m c main_arg1 (((cfg0.win 1).blk t).view.emb (ix2 q k)) = _
    refine congrArg (V m c main_arg1) (funext fun a => Fin.ext ?_)
    match a with
    | ⟨0, _⟩ => show win0_1.index t (0 : Fin 2) * 256 + 1 * q.val = win0_7.index t (2 : Fin 3) * 256 + 1 * q.val; omega
    | ⟨1, _⟩ => show win0_1.index t (1 : Fin 2) * 2048 + 1 * k.val = k.val; omega
  · -- the σ block, likewise
    intro k
    show V m c main_arg2 (((cfg0.win 2).blk t).view.emb (ix2 q k)) = _
    refine congrArg (V m c main_arg2) (funext fun a => Fin.ext ?_)
    match a with
    | ⟨0, _⟩ => show win0_2.index t (0 : Fin 2) * 256 + 1 * q.val = win0_7.index t (2 : Fin 3) * 256 + 1 * q.val; omega
    | ⟨1, _⟩ => show win0_2.index t (1 : Fin 2) * 2048 + 1 * k.val = k.val; omega
  · -- the bμ block: entry q of the column tile's 256 entries
    show V m c main_arg3 (((cfg0.win 3).blk t).view.emb (ix1 q)) = _
    refine congrArg (V m c main_arg3) (funext fun a => Fin.ext ?_)
    match a with
    | ⟨0, _⟩ => show win0_3.index t (0 : Fin 1) * 256 + 1 * q.val = win0_7.index t (2 : Fin 3) * 256 + 1 * q.val; omega
  · -- the bσ block, likewise
    show V m c main_arg4 (((cfg0.win 4).blk t).view.emb (ix1 q)) = _
    refine congrArg (V m c main_arg4) (funext fun a => Fin.ext ?_)
    match a with
    | ⟨0, _⟩ => show win0_4.index t (0 : Fin 1) * 256 + 1 * q.val = win0_7.index t (2 : Fin 3) * 256 + 1 * q.val; omega
  · -- the ε block: row q of the sample's rows of the column tile
    intro k
    show V m c main_arg5 (((cfg0.win 5).blk t).view.emb (ix3 (0 : Fin 1) q k)) = _
    refine congrArg (V m c main_arg5) (funext fun a => Fin.ext ?_)
    match a with
    | ⟨0, _⟩ => show win0_5.index t (0 : Fin 3) * 1 + 1 * ((0 : Fin 1) : ℕ) = win0_7.index t (0 : Fin 3) * 1 + 1 * u.val; omega
    | ⟨1, _⟩ => show win0_5.index t (1 : Fin 3) * 256 + 1 * q.val = win0_7.index t (2 : Fin 3) * 256 + 1 * q.val; omega
    | ⟨2, _⟩ => show win0_5.index t (2 : Fin 3) * 2048 + 1 * k.val = k.val; omega
  · -- the row of the εb block the body reads: the sample's, at entry q of the column tile
    show V m c main_arg6 (((cfg0.win 6).blk t).view.emb
        ((Rect.unit (s := S8x256) (k0_off1 (grid0.coords t)) S1x256.size (k0_off1_inb (grid0.coords t))).idx (ix2 (0 : Fin 1) q))) = _
    refine congrArg (V m c main_arg6) (funext fun a => Fin.ext ?_)
    match a with
    | ⟨0, _⟩ => show win0_6.index t (0 : Fin 2) * 8 + 1 * (k0_off1 (grid0.coords t) (0 : Fin 2) + 1 * ((0 : Fin 1) : ℕ)) = win0_7.index t (0 : Fin 3) * 1 + 1 * u.val; omega
    | ⟨1, _⟩ => show win0_6.index t (1 : Fin 2) * 256 + 1 * (k0_off1 (grid0.coords t) (1 : Fin 2) + 1 * q.val) = win0_7.index t (2 : Fin 3) * 256 + 1 * q.val; omega

/-- An index of the output array is in point `t`'s block iff each coordinate is in the block's range on its axis. -/
theorem mem_blk (t : Fin cfg0.N) (i : S8x256x2048.Idx) :
    i ∈ ((cfg0.win 7).blk t).view.set ↔ ∀ a : Fin 3, win0_7.index t a * S1x256x256.size a ≤ (i a).val
      ∧ (i a).val < win0_7.index t a * S1x256x256.size a + S1x256x256.size a := by
  show i ∈ ((View.whole main_v0).slice (win0_7.rect t)).set ↔ _
  rw [View.set_slice_whole, Rect.mem_set_unit]
  exact Iff.rfl

/-- The 64 blocks cover the output array: index `(s, b, o)` lies in the block of the point whose sample is `s` and
    whose column tile is `o / 256`; every point writes its block back. -/
theorem cover (i : S8x256x2048.Idx) :
    ∃ t : Fin cfg0.N, (cfg0.win 7).flush t = true ∧ i ∈ ((cfg0.win 7).blk t).view.set := by
  have h0 : (i 0).val < 8 := (i 0).isLt
  have h1 : (i 1).val < 256 := (i 1).isLt
  have h2 : (i 2).val < 2048 := (i 2).isLt
  obtain ⟨t, ht⟩ := idx_onto ⟨(i 0).val, h0⟩ ⟨(i 2).val / 256, by omega⟩
  have q0 : win0_7.index t (0 : Fin 3) = (i 0).val := congrFun ht 0
  have q1 : win0_7.index t (1 : Fin 3) = 0 := congrFun ht 1
  have q2 : win0_7.index t (2 : Fin 3) = (i 2).val / 256 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 256 ≤ (i 2).val ∧ (i 2).val < win0_7.index t (2 : Fin 3) * 256 + 256; omega

/-- So after the run the output array is the layer's output computed from the argument arrays as launched. -/
theorem final (c : Dev nD) : (dats m 0 c).arrAt 7 cfg0.N = Cert.Spec.linear (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (Cert.Spec.linear (V m c main_arg0) (V m c main_arg1) (V m c main_arg2) (V m c main_arg3) (V m c main_arg4) (V m c main_arg5) (V m c main_arg6)) (fun t _ => flushed_eq m c t) (fun i => cover i)

/-- The kernel's run, read: the result array holds the layer's output, the arguments are unchanged. -/
theorem run : θ_run defs (onTc (τ := τ) (main (F := Ideal))) ⟨m, fun _ => 0, ρ⟩ fun r => ∀ c : Dev nD,
      r.2.mem ((c : Thread nD τ).loc main_v0) = Cert.Spec.linear (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Blocks

end
-- ==== Proof.lean ====
/-
  A linear layer with per-sample random weights, as a tiled kernel and as a batched contraction: the two compute the
  same array of extended reals.

  For sample `s` the weights are `W_s = μ + σ · ε_s` (`[2048, 2048]`) and the bias is `β_s = bμ + bσ · εb_s` (`[2048]`);
  the output is `out(s, b, o) = (∑ k, x(s, b, k) · W_s(o, k)) + β_s(o)` (Proof/Spec.lean).

  * The reference forms `W` and `β` for all samples at once, contracts the last axis of `x` with the last axis of
    `W` sample by sample and adds `β` over the batch rows: read index by index it is that formula
    (Proof/Reference.lean, over the generated run and its read-at-an-index lemmas).
  * The kernel runs a grid of 8 column tiles by 8 samples. At a point it forms the tile's 256 rows of `W_s` from the
    blocks of `μ`, `σ`, `ε`, multiplies the sample's `[256, 2048]` slab of `x` by them (contracting the last axis of
    both, into a zero accumulator; the operands' casts to bf16 are the identity on extended reals), and adds the
    tile's 256 entries of `β_s`, whose `εb` row it picks out of an `[8, 256]` block by the sample coordinate
    (Proof/RowDot.lean, Proof/Body.lean, Proof/BlockValue.lean). Each point's block is the layer's output restricted
    to (sample, all rows, the tile's columns), and the 64 blocks tile the result (Proof/Blocks.lean, over the
    generated frame run with its output array named).

  Both sides perform the same operations in the same order on the same entries, so no law of arithmetic beyond
  reading sums and products at an index is used, and the finiteness of the inputs is never opened. The three frames
  are the generated ones (the reference's is its generated run with the result dropped); the kernel's idealization
  rewrote no operation, so the remaining conjunct is `True`.
-/
import proofs.«155724_j2594160247049_2_alg».proof.Defs
import proofs.«155724_j2594160247049_2_alg».proof.Proof.Gen.Kernel
import proofs.«155724_j2594160247049_2_alg».proof.Proof.Gen.Kernel.Skeleton
import proofs.«155724_j2594160247049_2_alg».proof.Proof.Gen.Kernel.Launch
import proofs.«155724_j2594160247049_2_alg».proof.Proof.Gen.Kernel.Points
import proofs.«155724_j2594160247049_2_alg».proof.Proof.Gen.Kernel.Frame
import proofs.«155724_j2594160247049_2_alg».proof.Proof.Gen.KernelIdeal
import proofs.«155724_j2594160247049_2_alg».proof.Proof.Gen.KernelIdeal.Skeleton
import proofs.«155724_j2594160247049_2_alg».proof.Proof.Gen.KernelIdeal.Launch
import proofs.«155724_j2594160247049_2_alg».proof.Proof.Gen.KernelIdeal.Points
import proofs.«155724_j2594160247049_2_alg».proof.Proof.Gen.KernelIdeal.Frame
import proofs.«155724_j2594160247049_2_alg».proof.Proof.Gen.ReferenceIdeal
import proofs.«155724_j2594160247049_2_alg».proof.Proof.Gen.KernelIdeal.Value
import proofs.«155724_j2594160247049_2_alg».proof.Proof.Gen.ReferenceIdeal.Run
import proofs.«155724_j2594160247049_2_alg».proof.Proof.Gen.ReferenceIdeal.Read
import proofs.«155724_j2594160247049_2_alg».proof.Proof.Gen.Pre_finite_inputs
import proofs.«155724_j2594160247049_2_alg».proof.Proof.Reference
import proofs.«155724_j2594160247049_2_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the result array at the layer's output
    of those arguments: the kernel by its blocks (`Blocks.run`), the reference by its stages read at an index
    (`reference_eq_linear`). -/
theorem algebraic : Cert.algebraic_KernelIdeal_ReferenceIdeal := by
  intro m ρ m' ρ' _ hagree
  refine ⟨fun c => Cert.Spec.linear
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)),
    Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.RefSpec.reference_eq_linear,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
